-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x10 : Shape := ⟨2, ![1048576, 10]⟩
abbrev S10x10 : Shape := ⟨2, ![10, 10]⟩
abbrev S10 : Shape := ⟨1, ![10]⟩
abbrev S_ : Shape := ⟨0, ![]⟩

class Facts : Prop where
  bcast_S_S1048576x10 : S_.BroadcastsInDim S1048576x10 (![] : Fin 0 → Fin S1048576x10.rank)
  reducesTo_S1048576x10_S_d0_1 : S1048576x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S1048576x10 .f32) (main_arg1 : FVec F S10x10 .f32) (main_arg2 : FVec F S10 .f32) (main_arg3 : FVec F S10x10 .f32) (main_arg4 : FVec F S10 .f32) : IVec S_ 1 :=
  let main_v0 : FVec F S1048576x10 .f32 := Host.absf main_arg0
  let main_cst : FVec F S_ .f32 := constant S_ .f32 0x7F800000#32
  let main_v1 : FVec F S1048576x10 .f32 := broadcastInDim S1048576x10 ![] bcast_S_S1048576x10 main_cst
  let main_v2 : IVec S1048576x10 1 := cmpf .olt main_v0 main_v1
  let main_c : IVec S_ 1 := constantI S_ 1 1#1
  let main_v3 : IVec S_ 1 := (fun x v => Host.reduce IntOp.andi x v reducesTo_S1048576x10_S_d0_1 h_S_) main_v2 main_c
  let main_v4 : FVec F S10x10 .f32 := Host.absf main_arg1
  let main_cst_0 : FVec F S_ .f32 := constant S_ .f32 0x7F800000#32
  let main_v5 : FVec F S10x10 .f32 := broadcastInDim S10x10 ![] bcast_S_S10x10 main_cst_0
  let main_v6 : IVec S10x10 1 := cmpf .olt main_v4 main_v5
  let main_c_1 : IVec S_ 1 := constantI S_ 1 1#1
  let main_v7 : IVec S_ 1 := (fun x v => Host.reduce IntOp.andi x v reducesTo_S10x10_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x10 .f32 := Host.absf main_arg3
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_arg4 main_v13 main_v16
-- ==== Kernel.lean ====
abbrev S1048576x10 : Shape := ⟨2, ![1048576, 10]⟩
abbrev S10x10 : Shape := ⟨2, ![10, 10]⟩
abbrev S10 : Shape := ⟨1, ![10]⟩
abbrev S16384x640 : Shape := ⟨2, ![16384, 640]⟩
abbrev S64x64 : Shape := ⟨2, ![64, 64]⟩
abbrev S_ : Shape := ⟨0, ![]⟩
abbrev S64x1x64x1 : Shape := ⟨4, ![64, 1, 64, 1]⟩
abbrev S1x10x1x10 : Shape := ⟨4, ![1, 10, 1, 10]⟩
abbrev S64x10x64x10 : Shape := ⟨4, ![64, 10, 64, 10]⟩
abbrev S640x640 : Shape := ⟨2, ![640, 640]⟩
abbrev S1x10 : Shape := ⟨2, ![1, 10]⟩
abbrev S64x10 : Shape := ⟨2, ![64, 10]⟩
abbrev S640 : Shape := ⟨1, ![640]⟩
abbrev S1x640 : Shape := ⟨2, ![1, 640]⟩
abbrev S512x640 : Shape := ⟨2, ![512, 640]⟩

abbrev nBuf : Space → Nat
  | .hbm => 35
  | .vmem => 8
  | .smem => 0
  | _ => 0

abbrev bufTy : (tb : Table) → Fin (tcTables nBuf tb) → BufTy
  | .hbm, ⟨0, _⟩ => ⟨S1048576x10, .f32⟩
  | .hbm, ⟨1, _⟩ => ⟨S10x10, .f32⟩
  | .hbm, ⟨2, _⟩ => ⟨S10, .f32⟩
  | .hbm, ⟨3, _⟩ => ⟨S10x10, .f32⟩
  | .hbm, ⟨4, _⟩ => ⟨S10, .f32⟩
  | .hbm, ⟨5, _⟩ => ⟨S16384x640, .f32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i1⟩
  | .hbm, ⟨12, _⟩ => ⟨S64x64, .f32⟩
  | .hbm, ⟨13, _⟩ => ⟨S64x1x64x1, .f32⟩
  | .hbm, ⟨14, _⟩ => ⟨S1x10x1x10, .f32⟩
  | .hbm, ⟨15, _⟩ => ⟨S64x10x64x10, .f32⟩
  | .hbm, ⟨16, _⟩ => ⟨S64x10x64x10, .f32⟩
  | .hbm, ⟨17, _⟩ => ⟨S64x10x64x10, .f32⟩
  | .hbm, ⟨18, _⟩ => ⟨S640x640, .f32⟩
  | .hbm, ⟨19, _⟩ => ⟨S64x1x64x1, .f32⟩
  | .hbm, ⟨20, _⟩ => ⟨S1x10x1x10, .f32⟩
  | .hbm, ⟨21, _⟩ => ⟨S64x10x64x10, .f32⟩
  | .hbm, ⟨22, _⟩ => ⟨S64x10x64x10, .f32⟩
  | .hbm, ⟨23, _⟩ => ⟨S64x10x64x10, .f32⟩
  | .hbm, ⟨24, _⟩ => ⟨S640x640, .f32⟩
  | .hbm, ⟨25, _⟩ => ⟨S1x10, .f32⟩
  | .hbm, ⟨26, _⟩ => ⟨S64x10, .f32⟩
  | .hbm, ⟨27, _⟩ => ⟨S640, .f32⟩
  | .hbm, ⟨28, _⟩ => ⟨S1x640, .f32⟩
  | .hbm, ⟨29, _⟩ => ⟨S1x10, .f32⟩
  | .hbm, ⟨30, _⟩ => ⟨S64x10, .f32⟩
  | .hbm, ⟨31, _⟩ => ⟨S640, .f32⟩
  | .hbm, ⟨32, _⟩ => ⟨S1x640, .f32⟩
  | .hbm, ⟨33, _⟩ => ⟨S16384x640, .f32⟩
  | .hbm, ⟨34, _⟩ => ⟨S1048576x10, .f32⟩
  | .local _ .vmem, ⟨0, _⟩ => ⟨S512x640, .f32⟩
  | .local _ .vmem, ⟨1, _⟩ => ⟨S512x640, .f32⟩
  | .local _ .vmem, ⟨2, _⟩ => ⟨S640x640, .f32⟩
  | .local _ .vmem, ⟨3, _⟩ => ⟨S1x640, .f32⟩
  | .local _ .vmem, ⟨4, _⟩ => ⟨S640x640, .f32⟩
  | .local _ .vmem, ⟨5, _⟩ => ⟨S1x640, .f32⟩
  | .local _ .vmem, ⟨6, _⟩ => ⟨S512x640, .f32⟩
  | .local _ .vmem, ⟨7, _⟩ => ⟨S512x640, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_c : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_v7 : Ref sig .tc := ⟨.hbm, 18, rfl⟩
abbrev main_call0_call1_v0 : Ref sig .tc := ⟨.hbm, 19, rfl⟩
abbrev main_call0_call1_v1 : Ref sig .tc := ⟨.hbm, 20, rfl⟩
abbrev main_call0_call1_v2 : Ref sig .tc := ⟨.hbm, 21, rfl⟩
abbrev main_call0_call1_v3 : Ref sig .tc := ⟨.hbm, 22, rfl⟩
abbrev main_call0_call1_v4 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_v0 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1048576x10_S16384x640 : S1048576x10.ShapeCasts S16384x640
  bcast_S_S64x64 : S_.BroadcastsInDim S64x64 (![] : Fin 0 → Fin S64x64.rank)
  bcast_S64x64_S64x1x64x1_0_2 : S64x64.BroadcastsInDim S64x1x64x1 (![0, 2] : Fin 2 → Fin S64x1x64x1.rank)
  bcast_S10x10_S1x10x1x10_1_3 : S10x10.BroadcastsInDim S1x10x1x10 (![1, 3] : Fin 2 → Fin S1x10x1x10.rank)
  bcast_S64x1x64x1_S64x10x64x10_0_1_2_3 : S64x1x64x1.BroadcastsInDim S64x10x64x10 (![0, 1, 2, 3] : Fin 4 → Fin S64x10x64x10.rank)
  bcast_S1x10x1x10_S64x10x64x10_0_1_2_3 : S1x10x1x10.BroadcastsInDim S64x10x64x10 (![0, 1, 2, 3] : Fin 4 → Fin S64x10x64x10.rank)
  shapeCasts_S64x10x64x10_S640x640 : S64x10x64x10.ShapeCasts S640x640
  shapeCasts_S10_S1x10 : S10.ShapeCasts S1x10
  bcast_S1x10_S64x10_0_1 : S1x10.BroadcastsInDim S64x10 (![0, 1] : Fin 2 → Fin S64x10.rank)
  shapeCasts_S64x10_S640 : S64x10.ShapeCasts S640
  shapeCasts_S640_S1x640 : S640.ShapeCasts S1x640
  shapeCasts_S16384x640_S1048576x10 : S16384x640.ShapeCasts S1048576x10
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640x640_S640x640_0_0 : ∀ a, (![0, 0] : Fin 2 → Nat) a + S640x640.size a ≤ S640x640.size a
  h_S640x640 : 0 < S640x640.numel
  shapeCasts_S640x640_S640x640 : S640x640.ShapeCasts S640x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S512x640 : S1x640.Broadcasts S512x640
  dot_S512x640_S640x640_S512x640_1_0_0_1_n_n_wf : DotDims.WF S512x640 S640x640 S512x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x640.size a ≤ S16384x640.size a
  hwx0_0 : ∀ i : grid0.Coords, EltTy.bits .f32 = 32 ∨ (Rect.block (s := S16384x640) S512x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x640.size a ≤ S640x640.size a
  hwx0_1 : ∀ i : grid0.Coords, EltTy.bits .f32 = 32 ∨ (Rect.block (s := S640x640) S640x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x640.size a ≤ S640x640.size a
  hwx0_3 : ∀ i : grid0.Coords, EltTy.bits .f32 = 32 ∨ (Rect.block (s := S640x640) S640x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x640.size a ≤ S1x640.size a
  hwx0_4 : ∀ i : grid0.Coords, EltTy.bits .f32 = 32 ∨ (Rect.block (s := S1x640) S1x640.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x640.size a ≤ S16384x640.size a
  hwx0_5 : ∀ i : grid0.Coords, EltTy.bits .f32 = 32 ∨ (Rect.block (s := S16384x640) S512x640.size (cc0_transform_5 i) (hinb0_5 i)).WholeWords (EltTy.packing .f32)

variable [Facts₀]

def dot_S512x640_S640x640_S512x640_1_0_0_1_n_n : DotDims S512x640 S640x640 S512x640 where
  lhsContracting := [1]
  rhsContracting := [0]
  lhsNonContracting := [0]
  rhsNonContracting := [1]
  lhsBatch := []
  rhsBatch := []
  wf := dot_S512x640_S640x640_S512x640_1_0_0_1_n_n_wf

abbrev win0_0 : Pipeline.Window sig grid0 :=
  Pipeline.Window.ofSpec (Memref.whole main_call0_v0) S512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S640x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S640x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v16) S1x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v17) S512x640.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x10 : Shape := ⟨2, ![1048576, 10]⟩
abbrev S10x10 : Shape := ⟨2, ![10, 10]⟩
abbrev S10 : Shape := ⟨1, ![10]⟩
abbrev S_ : Shape := ⟨0, ![]⟩
abbrev S1048576x128 : Shape := ⟨2, ![1048576, 128]⟩
abbrev S128x128 : Shape := ⟨2, ![128, 128]⟩
abbrev S1x10 : Shape := ⟨2, ![1, 10]⟩
abbrev S1x128 : Shape := ⟨2, ![1, 128]⟩
abbrev S512x128 : Shape := ⟨2, ![512, 128]⟩

abbrev nBuf : Space → Nat
  | .hbm => 24
  | .vmem => 8
  | .smem => 0
  | _ => 0

abbrev bufTy : (tb : Table) → Fin (tcTables nBuf tb) → BufTy
  | .hbm, ⟨0, _⟩ => ⟨S1048576x10, .f32⟩
  | .hbm, ⟨1, _⟩ => ⟨S10x10, .f32⟩
  | .hbm, ⟨2, _⟩ => ⟨S10, .f32⟩
  | .hbm, ⟨3, _⟩ => ⟨S10x10, .f32⟩
  | .hbm, ⟨4, _⟩ => ⟨S10, .f32⟩
  | .hbm, ⟨5, _⟩ => ⟨S_, .i32⟩
  | .hbm, ⟨6, _⟩ => ⟨S_, .f32⟩
  | .hbm, ⟨7, _⟩ => ⟨S1048576x128, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S_, .i32⟩
  | .hbm, ⟨12, _⟩ => ⟨S_, .f32⟩
  | .hbm, ⟨13, _⟩ => ⟨S128x128, .f32⟩
  | .hbm, ⟨14, _⟩ => ⟨S1x10, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1x10, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1048576x128, .f32⟩
  | .hbm, ⟨23, _⟩ => ⟨S1048576x10, .f32⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_call0_v0 : Ref sig .tc := ⟨.hbm, 6, rfl⟩
abbrev main_call0_v0 : Ref sig .tc := ⟨.hbm, 7, rfl⟩
abbrev main_call0_c_0 : Ref sig .tc := ⟨.hbm, 8, rfl⟩
abbrev main_call0_call1_v0 : Ref sig .tc := ⟨.hbm, 9, rfl⟩
abbrev main_call0_v1 : Ref sig .tc := ⟨.hbm, 10, rfl⟩
abbrev main_call0_c_1 : Ref sig .tc := ⟨.hbm, 11, rfl⟩
abbrev main_call0_call2_v0 : Ref sig .tc := ⟨.hbm, 12, rfl⟩
abbrev main_call0_v2 : Ref sig .tc := ⟨.hbm, 13, rfl⟩
abbrev main_call0_v3 : Ref sig .tc := ⟨.hbm, 14, rfl⟩
abbrev main_call0_c_2 : Ref sig .tc := ⟨.hbm, 15, rfl⟩
abbrev main_call0_call3_v0 : Ref sig .tc := ⟨.hbm, 16, rfl⟩
abbrev main_call0_v4 : Ref sig .tc := ⟨.hbm, 17, rfl⟩
abbrev main_call0_v5 : Ref sig .tc := ⟨.hbm, 18, rfl⟩
abbrev main_call0_c_3 : Ref sig .tc := ⟨.hbm, 19, rfl⟩
abbrev main_call0_call4_v0 : Ref sig .tc := ⟨.hbm, 20, rfl⟩
abbrev main_call0_v6 : Ref sig .tc := ⟨.hbm, 21, rfl⟩
abbrev main_call0_v7 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S1048576x10_S1048576x128_000_01180 : S1048576x10.Pads (![0, 0] : Fin 2 → Nat) ![0, 118] ![0, 0] S1048576x128
  h_S_ : 0 < S_.numel
  pads_S10x10_S128x128_01180_01180 : S10x10.Pads (![0, 0] : Fin 2 → Nat) ![118, 118] ![0, 0] S128x128
  shapeCasts_S10_S1x10 : S10.ShapeCasts S1x10
  pads_S1x10_S1x128_000_01180 : S1x10.Pads (![0, 0] : Fin 2 → Nat) ![0, 118] ![0, 0] S1x128
  slices_S1048576x128_S1048576x10_0_0 : S1048576x128.Slices ![0, 0] S1048576x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1048576x128.size a
  hwx0_0 : ∀ i : grid0.Coords, EltTy.bits .f32 = 32 ∨ (Rect.block (s := S1048576x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S1048576x128.size a
  hwx0_5 : ∀ i : grid0.Coords, EltTy.bits .f32 = 32 ∨ (Rect.block (s := S1048576x128) S512x128.size (cc0_transform_5 i) (hinb0_5 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_call0_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KernelTerms.lean ====
/-
  The packed kernel's four host terms, and each read at an entry.

  The batch `x : [1048576, 10]` is viewed as `[16384, 640]`: packed row `R` holds the 64 logical rows `R*64 + q`, row
  `q` at lanes `q*10 .. q*10 + 9` (`packed`). Each weight matrix `w : [10, 10]` becomes the Kronecker product of the
  64×64 identity with `w`, a `[640, 640]` matrix whose entry `(a*10 + b, c*10 + d)` is `[a = c] · w(b, d)` (`kron`; the
  identity `eye` is an iota comparison converted to a float). Each bias `b : [10]` is repeated 64 times along the one
  row of a `[1, 640]` array (`tile`): lane `n` holds `b (n mod 10)`.
-/
import proofs.«124273_g2000506800854435_pallasbulk_1138_3_alg».proof.Proof.Gen.KernelIdeal
import Idealize.ShloMosaic.Lib.Pipeline.Value
import Idealize.ShloMosaic.Lib.ValueIdx
import Idealize.ShloMosaic.Lib.ValueLayout
import Idealize.ShloMosaic.Lib.IdealHost
import Idealize.ShloMosaic.Lib.Affine

noncomputable section

namespace Cert.KernelIdeal.Packed

open Idealize.ShloMosaic Idealize.ShloMosaic.ValueIdx
open Cert.KernelIdeal Cert.KernelIdeal.Gen

/-! ## The four host terms -/

/-- The batch viewed as 16384 packed rows of 640 lanes. -/
def packed (x : FVec Ideal S1048576x10 .f32) : FVec Ideal S16384x640 .f32 :=
  shapeCast S16384x640 x shapeCasts_S1048576x10_S16384x640

/-- The 64×64 identity: row coordinate equal to column coordinate, as a float. -/
def eye : FVec Ideal S64x64 .f32 :=
  uitofp .f32 (cmpi .eq (addi (iotaInDim S64x64 32 0) (broadcastInDim S64x64 ![] bcast_S_S64x64 (constantI S_ 32 0#32)))
    (iotaInDim S64x64 32 1))

/-- The Kronecker product of a 64×64 matrix with a 10×10 matrix. -/
def kronOf (e : FVec Ideal S64x64 .f32) (w : FVec Ideal S10x10 .f32) : FVec Ideal S640x640 .f32 :=
  shapeCast S640x640
    (mulf
      (broadcastInDim S64x10x64x10 ![0, 1, 2, 3] bcast_S64x1x64x1_S64x10x64x10_0_1_2_3
        (broadcastInDim S64x1x64x1 ![0, 2] bcast_S64x64_S64x1x64x1_0_2 e))
      (broadcastInDim S64x10x64x10 ![0, 1, 2, 3] bcast_S1x10x1x10_S64x10x64x10_0_1_2_3
        (broadcastInDim S1x10x1x10 ![1, 3] bcast_S10x10_S1x10x1x10_1_3 w)))
    shapeCasts_S64x10x64x10_S640x640

/-- The Kronecker product of the identity with a 10×10 matrix. -/
def kron (w : FVec Ideal S10x10 .f32) : FVec Ideal S640x640 .f32 := kronOf eye w

/-- A bias repeated 64 times along one row. -/
def tile (b : FVec Ideal S10 .f32) : FVec Ideal S1x640 .f32 :=
  shapeCast S1x640
    (shapeCast S640 (broadcastInDim S64x10 ![0, 1] bcast_S1x10_S64x10_0_1 (shapeCast S1x10 b shapeCasts_S10_S1x10))
      shapeCasts_S64x10_S640)
    shapeCasts_S640_S1x640

/-! ## Each read at an entry -/

/-- Lane `q*10 + j` of packed row `R` is entry `j` of logical row `R*64 + q`: the two have one row-major position. -/
theorem packed_apply (x : FVec Ideal S1048576x10 .f32) (R : Fin 16384) (n : Fin 640) (r : Fin 1048576) (j : Fin 10)
    (h : r.val * 10 + j.val = R.val * 640 + n.val) : packed x (ix2 R n) = x (ix2 r j) := by
  unfold packed
  refine shapeCast_apply x _ (ix2 R n) (ix2 r j) ?_
  rw [Shape.rowMajor_val_two, Shape.rowMajor_val_two]
  exact h

/-- The iota comparison, word by word: equal coordinates give the bit one, different ones the bit zero. -/
theorem eye_word : ∀ a c : Fin 64,
    IntOp.cmpi .eq (IntOp.addi (BitVec.ofNat 32 a.val) 0#32) (BitVec.ofNat 32 c.val) = if a = c then 1#1 else 0#1 := by
  decide +kernel

/-- The identity's entries. -/
theorem eye_apply (a c : Fin 64) : eye (ix2 a c) = if a = c then 1 else 0 := by
  show (((IntOp.cmpi .eq (IntOp.addi (BitVec.ofNat 32 a.val) 0#32) (BitVec.ofNat 32 c.val)).toNat : ℝ) : EReal) = _
  rw [eye_word a c]
  by_cases h : a = c
  · rw [if_pos h, if_pos h]; norm_num
  · rw [if_neg h, if_neg h]; norm_num

/-- Entry `(a*10 + b, c*10 + d)` of a Kronecker product is the left factor's `(a, c)` times the right factor's `(b, d)`. -/
theorem kronOf_apply (e : FVec Ideal S64x64 .f32) (w : FVec Ideal S10x10 .f32) (J K : Fin 640) (a c : Fin 64) (b d : Fin 10)
    (hJ : J.val = a.val * 10 + b.val) (hK : K.val = c.val * 10 + d.val) :
    kronOf e w (ix2 J K) = e (ix2 a c) * w (ix2 b d) := by
  unfold kronOf
  refine (shapeCast_apply _ shapeCasts_S64x10x64x10_S640x640 (ix2 J K) (ix4 a b c d) ?_).trans ?_
  · rw [Shape.rowMajor_val_four, Shape.rowMajor_val_two]
    show ((a.val * 10 + b.val) * 64 + c.val) * 10 + d.val = J.val * 640 + K.val
    omega
  rw [mulf_apply]
  refine congrArg₂ (· * ·) ?_ ?_
  · refine (broadcastInDim_apply ![0, 1, 2, 3] bcast_S64x1x64x1_S64x10x64x10_0_1_2_3 _ (ix4 a b c d)
      (ix4 a (0 : Fin 1) c (0 : Fin 1)) fun x => ?_).trans ?_
    · match x with
      | ⟨0, _⟩ => show a.val = if (64 : ℕ) = 1 then 0 else a.val; rw [if_neg (by decide)]
      | ⟨1, _⟩ => show (0 : ℕ) = if (1 : ℕ) = 1 then 0 else b.val; rw [if_pos rfl]
      | ⟨2, _⟩ => show c.val = if (64 : ℕ) = 1 then 0 else c.val; rw [if_neg (by decide)]
      | ⟨3, _⟩ => show (0 : ℕ) = if (1 : ℕ) = 1 then 0 else d.val; rw [if_pos rfl]
    exact broadcastInDim_apply ![0, 2] bcast_S64x64_S64x1x64x1_0_2 e (ix4 a (0 : Fin 1) c (0 : Fin 1)) (ix2 a c) fun x =>
      match x with
      | ⟨0, _⟩ => by show a.val = if (64 : ℕ) = 1 then 0 else a.val; rw [if_neg (by decide)]
      | ⟨1, _⟩ => by show c.val = if (64 : ℕ) = 1 then 0 else c.val; rw [if_neg (by decide)]
  · refine (broadcastInDim_apply ![0, 1, 2, 3] bcast_S1x10x1x10_S64x10x64x10_0_1_2_3 _ (ix4 a b c d)
      (ix4 (0 : Fin 1) b (0 : Fin 1) d) fun x => ?_).trans ?_
    · match x with
      | ⟨0, _⟩ => show (0 : ℕ) = if (1 : ℕ) = 1 then 0 else a.val; rw [if_pos rfl]
      | ⟨1, _⟩ => show b.val = if (10 : ℕ) = 1 then 0 else b.val; rw [if_neg (by decide)]
      | ⟨2, _⟩ => show (0 : ℕ) = if (1 : ℕ) = 1 then 0 else c.val; rw [if_pos rfl]
      | ⟨3, _⟩ => show d.val = if (10 : ℕ) = 1 then 0 else d.val; rw [if_neg (by decide)]
    exact broadcastInDim_apply ![1, 3] bcast_S10x10_S1x10x1x10_1_3 w (ix4 (0 : Fin 1) b (0 : Fin 1) d) (ix2 b d) fun x =>
      match x with
      | ⟨0, _⟩ => by show b.val = if (10 : ℕ) = 1 then 0 else b.val; rw [if_neg (by decide)]
      | ⟨1, _⟩ => by show d.val = if (10 : ℕ) = 1 then 0 else d.val; rw [if_neg (by decide)]

/-- With the identity on the left: a diagonal block is the matrix, an off-diagonal block is zero. -/
theorem kron_apply (w : FVec Ideal S10x10 .f32) (J K : Fin 640) (a c : Fin 64) (b d : Fin 10)
    (hJ : J.val = a.val * 10 + b.val) (hK : K.val = c.val * 10 + d.val) :
    kron w (ix2 J K) = if a = c then w (ix2 b d) else 0 := by
  unfold kron
  rw [kronOf_apply eye w J K a c b d hJ hK, eye_apply]
  by_cases h : a = c
  · rw [if_pos h, if_pos h, one_mul]
  · rw [if_neg h, if_neg h, zero_mul]

/-- Lane `n` of the tiled bias is the bias at `n mod 10`. -/
theorem tile_apply (b : FVec Ideal S10 .f32) (n : Fin 640) (q : Fin 64) (k : Fin 10) (hn : n.val = q.val * 10 + k.val) :
    tile b (ix2 (0 : Fin 1) n) = b (ix1 k) := by
  unfold tile
  refine (shapeCast_apply _ shapeCasts_S640_S1x640 (ix2 (0 : Fin 1) n) (ix1 n) ?_).trans ?_
  · rw [Shape.rowMajor_val_one, Shape.rowMajor_val_two]
    show n.val = 0 * 640 + n.val
    omega
  refine (shapeCast_apply _ shapeCasts_S64x10_S640 (ix1 n) (ix2 q k) ?_).trans ?_
  · rw [Shape.rowMajor_val_two, Shape.rowMajor_val_one]
    show q.val * 10 + k.val = n.val
    omega
  refine (broadcastInDim_apply ![0, 1] bcast_S1x10_S64x10_0_1 _ (ix2 q k) (ix2 (0 : Fin 1) k) fun x => ?_).trans ?_
  · match x with
    | ⟨0, _⟩ => show (0 : ℕ) = if (1 : ℕ) = 1 then 0 else q.val; rw [if_pos rfl]
    | ⟨1, _⟩ => show k.val = if (10 : ℕ) = 1 then 0 else k.val; rw [if_neg (by decide)]
  refine shapeCast_apply b shapeCasts_S10_S1x10 (ix2 (0 : Fin 1) k) (ix1 k) ?_
  rw [Shape.rowMajor_val_one, Shape.rowMajor_val_two]
  show k.val = 0 * 10 + k.val
  omega

end Cert.KernelIdeal.Packed

end
-- ==== Proof.KernelOperands.lean ====
/-
  What the packed kernel's region finds in its five operand arrays: the host operations before the region leave the
  batch's packed view, the two Kronecker weights and the two tiled biases (the terms of KernelTerms) of the arguments.
-/
import proofs.«124273_g2000506800854435_pallasbulk_1138_3_alg».proof.Proof.Gen.KernelIdeal.Frame
import proofs.«124273_g2000506800854435_pallasbulk_1138_3_alg».proof.Proof.KernelTerms
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Packed

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

theorem V_x (c : Dev nD) : (V m c main_call0_v0 : S16384x640.Idx → EReal) = packed (m ((c : Thread nD τ).loc main_arg0)) := by
  show StableHlo.after hostOps0 (fun b => m (c, b)) (Proc.devRef .tc main_call0_v0) = _
  after_results
  rfl

theorem V_m1 (c : Dev nD) : (V m c main_call0_v7 : S640x640.Idx → EReal) = kron (m ((c : Thread nD τ).loc main_arg1)) := by
  show StableHlo.after hostOps0 (fun b => m (c, b)) (Proc.devRef .tc main_call0_v7) = _
  after_results
  rfl

theorem V_m2 (c : Dev nD) : (V m c main_call0_v8 : S640x640.Idx → EReal) = kron (m ((c : Thread nD τ).loc main_arg3)) := by
  show StableHlo.after hostOps0 (fun b => m (c, b)) (Proc.devRef .tc main_call0_v8) = _
  after_results
  rfl

theorem V_b1 (c : Dev nD) : (V m c main_call0_v12 : S1x640.Idx → EReal) = tile (m ((c : Thread nD τ).loc main_arg2)) := by
  show StableHlo.after hostOps0 (fun b => m (c, b)) (Proc.devRef .tc main_call0_v12) = _
  after_results
  rfl

theorem V_b2 (c : Dev nD) : (V m c main_call0_v16 : S1x640.Idx → EReal) = tile (m ((c : Thread nD τ).loc main_arg4)) := by
  show StableHlo.after hostOps0 (fun b => m (c, b)) (Proc.devRef .tc main_call0_v16) = _
  after_results
  rfl

end Cert.KernelIdeal.Packed

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«124273_g2000506800854435_pallasbulk_1138_3_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibSumSupport.lean ====
/-
  Finite sums whose terms vanish outside a prefix or outside one block.

  A sum over `Fin N` of terms that are zero from position `n` on is the sum of the first `n` terms; a sum over
  `Fin (Q * B)`, read as `Q` consecutive blocks of `B` places, of terms that are zero outside block `p` is the
  sum over that block. Both hold in any additive commutative monoid (no subtraction, no finiteness), so they
  serve sums of extended reals: a matrix product against a zero-padded or a block-diagonal matrix loses its
  vanishing terms this way. Imports only Mathlib.
-/
import Mathlib.Algebra.BigOperators.Fin
import Mathlib.Algebra.BigOperators.Group.Finset.Basic
import Mathlib.Logic.Equiv.Fin.Basic

namespace Cert.Lib.SumSupport

open scoped BigOperators

variable {M : Type*} [AddCommMonoid M]

/-- Terms that vanish from position `n` on: the sum over `Fin N` is the sum of the first `n` terms. -/
theorem sum_prefix {n N : ℕ} (h : n ≤ N) (f : Fin N → M) (hz : ∀ k : Fin N, n ≤ k.val → f k = 0) :
    ∑ k, f k = ∑ k : Fin n, f (Fin.castLE h k) := by
  rw [show ∑ k : Fin n, f (Fin.castLE h k) = ∑ x ∈ Finset.univ.map (Fin.castLEEmb h), f x from
    (Finset.sum_map Finset.univ (Fin.castLEEmb h) f).symm]
  refine (Finset.sum_subset (Finset.subset_univ _) fun x _ hx => hz x ?_).symm
  by_contra hlt
  exact hx (Finset.mem_map.2 ⟨⟨x.val, Nat.lt_of_not_le hlt⟩, Finset.mem_univ _, Fin.ext rfl⟩)

/-- Place `b` of block `p` among `Q` consecutive blocks of `B` places: position `p * B + b`. -/
def blockIdx {N Q B : ℕ} (hN : N = Q * B) (p : ℕ) (hp : p < Q) (b : Fin B) : Fin N :=
  ⟨p * B + b.val, by
    subst hN; calc p * B + b.val < p * B + B := Nat.add_lt_add_left b.isLt _
      _ = (p + 1) * B := (Nat.succ_mul p B).symm
      _ ≤ Q * B := Nat.mul_le_mul_right B hp⟩

theorem blockIdx_val {N Q B : ℕ} (hN : N = Q * B) (p : ℕ) (hp : p < Q) (b : Fin B) :
    (blockIdx hN p hp b).val = p * B + b.val := rfl

/-- Terms that vanish outside block `p` of `Q` consecutive blocks of `B` places: the sum over all `Q * B`
    places is the sum over the block's `B` places `p * B + b`. -/
theorem sum_block {N Q B : ℕ} (hN : N = Q * B) (f : Fin N → M) (p : ℕ) (hp : p < Q)
    (hz : ∀ k : Fin N, k.val / B ≠ p → f k = 0) :
    ∑ k, f k = ∑ b : Fin B, f (blockIdx hN p hp b) := by
  subst hN
  rw [← Equiv.sum_comp finProdFinEquiv f, Fintype.sum_prod_type]
  rw [Finset.sum_eq_single (⟨p, hp⟩ : Fin Q)]
  · refine Finset.sum_congr rfl fun b _ => congrArg f (Fin.ext ?_)
    show b.val + B * p = p * B + b.val
    rw [Nat.mul_comm, Nat.add_comm]
  · intro q _ hq
    refine Finset.sum_eq_zero fun b _ => hz _ ?_
    show (b.val + B * q.val) / B ≠ p
    have hB : 0 < B := Nat.pos_of_ne_zero fun h0 => by subst h0; exact b.elim0
    rw [Nat.add_mul_div_left _ _ hB, Nat.div_eq_of_lt b.isLt, Nat.zero_add]
    exact fun e => hq (Fin.ext e)
  · intro hp'; exact absurd (Finset.mem_univ _) hp'

end Cert.Lib.SumSupport
-- ==== Proof.LibTwoLayer.lean ====
/-
  Two dense layers with a rectifier between them, read at an entry.

  `twoLayer X W1 B1 W2 B2` is the matrix whose entry `(p, c)` is
  `Σ_k max (Σ_j X(p,j) · W1(j,k) + B1(0,k)) 0 · W2(k,c) + B2(0,c)` on the extended reals: `X` is `[M, A]`, the weights
  `[A, A]`, the biases one-row arrays `[1, A]`. A kernel body prints it as a `tpu.matmul` into the zero accumulator,
  the bias row broadcast over the rows and added, a maximum with a splat zero, and the same again (`body_apply`).
  Two reductions of the hidden and the input sums, both without any finiteness (a product with an exact zero is zero on
  the extended reals): when the weights vanish from row `n` on — zero-padded matrices — only the first `n` terms of
  each sum remain (`twoLayer_prefix`); when the weights vanish off the diagonal blocks of `Q` blocks of `B` — a
  Kronecker product of an identity with a `[B, B]` matrix — only the terms of the output column's own block remain
  (`twoLayer_block`).
-/
import proofs.«124273_g2000506800854435_pallasbulk_1138_3_alg».proof.Proof.LibDenseLayer
import proofs.«124273_g2000506800854435_pallasbulk_1138_3_alg».proof.Proof.LibSumSupport

noncomputable section

namespace Cert.Lib.TwoLayer

open Idealize.ShloMosaic Idealize.ShloMosaic.ValueIdx Cert.Lib.SumSupport

/-- Entry `i` of two dense layers with a rectifier between: `Σ_k max (Σ_j X·W1 + B1) 0 · W2 + B2`. -/
def twoLayer {M A : ℕ} (X : (⟨2, ![M, A]⟩ : Shape).Idx → EReal) (W1 : (⟨2, ![A, A]⟩ : Shape).Idx → EReal)
    (B1 : (⟨2, ![1, A]⟩ : Shape).Idx → EReal) (W2 : (⟨2, ![A, A]⟩ : Shape).Idx → EReal)
    (B2 : (⟨2, ![1, A]⟩ : Shape).Idx → EReal) : (⟨2, ![M, A]⟩ : Shape).Idx → EReal := fun i =>
  (∑ k : Fin A, max ((∑ j : Fin A, X (ix2 (i 0) j) * W1 (ix2 j k)) + B1 (ix2 (0 : Fin 1) k)) 0 * W2 (ix2 k (i 1)))
    + B2 (ix2 (0 : Fin 1) (i 1))

theorem twoLayer_apply {M A : ℕ} (X : (⟨2, ![M, A]⟩ : Shape).Idx → EReal) (W1 : (⟨2, ![A, A]⟩ : Shape).Idx → EReal)
    (B1 : (⟨2, ![1, A]⟩ : Shape).Idx → EReal) (W2 : (⟨2, ![A, A]⟩ : Shape).Idx → EReal)
    (B2 : (⟨2, ![1, A]⟩ : Shape).Idx → EReal) (p : Fin M) (c : Fin A) :
    twoLayer X W1 B1 W2 B2 (ix2 p c)
      = (∑ k : Fin A, max ((∑ j : Fin A, X (ix2 p j) * W1 (ix2 j k)) + B1 (ix2 (0 : Fin 1) k)) 0 * W2 (ix2 k c))
        + B2 (ix2 (0 : Fin 1) c) := rfl

/-- A row of the result depends on `X` through that row only. -/
theorem twoLayer_congr_row {M M' A : ℕ} (X : (⟨2, ![M, A]⟩ : Shape).Idx → EReal) (X' : (⟨2, ![M', A]⟩ : Shape).Idx → EReal)
    (W1 : (⟨2, ![A, A]⟩ : Shape).Idx → EReal) (B1 : (⟨2, ![1, A]⟩ : Shape).Idx → EReal)
    (W2 : (⟨2, ![A, A]⟩ : Shape).Idx → EReal) (B2 : (⟨2, ![1, A]⟩ : Shape).Idx → EReal)
    (i : (⟨2, ![M, A]⟩ : Shape).Idx) (i' : (⟨2, ![M', A]⟩ : Shape).Idx) (h1 : i 1 = i' 1)
    (h : ∀ j : Fin A, X (ix2 (i 0) j) = X' (ix2 (i' 0) j)) :
    twoLayer X W1 B1 W2 B2 i = twoLayer X' W1 B1 W2 B2 i' := by
  unfold twoLayer
  simp only [h, h1]

/-! ## The printed body -/

/-- The body a kernel prints for the two layers — matmul into zero, bias row broadcast and added, maximum with a
    splat zero, matmul into zero, bias row broadcast and added — read at `(p, c)`, is `twoLayer` there. The
    contraction record enters through the six facts of a plain matrix product. -/
theorem body_apply {M A : ℕ} (D : DotDims ⟨2, ![M, A]⟩ ⟨2, ![A, A]⟩ ⟨2, ![M, A]⟩)
    (hr : D.contr.rank = 1) (hs : D.contr.size ⟨0, by omega⟩ = A)
    (hl0 : ∀ (j : (⟨2, ![M, A]⟩ : Shape).Idx) (q : D.contr.Idx), (D.lhsIdx j q 0).val = (j 0).val)
    (hl1 : ∀ (j : (⟨2, ![M, A]⟩ : Shape).Idx) (q : D.contr.Idx), (D.lhsIdx j q 1).val = (q ⟨0, by omega⟩).val)
    (hr0 : ∀ (j : (⟨2, ![M, A]⟩ : Shape).Idx) (q : D.contr.Idx), (D.rhsIdx j q 0).val = (q ⟨0, by omega⟩).val)
    (hr1 : ∀ (j : (⟨2, ![M, A]⟩ : Shape).Idx) (q : D.contr.Idx), (D.rhsIdx j q 1).val = (j 1).val)
    (X : FVec Ideal ⟨2, ![M, A]⟩ .f32) (W1 : FVec Ideal ⟨2, ![A, A]⟩ .f32) (B1 : FVec Ideal ⟨2, ![1, A]⟩ .f32)
    (W2 : FVec Ideal ⟨2, ![A, A]⟩ .f32) (B2 : FVec Ideal ⟨2, ![1, A]⟩ .f32)
    (hb : (⟨2, ![1, A]⟩ : Shape).Broadcasts ⟨2, ![M, A]⟩) (p : Fin M) (c : Fin A) :
    addf (matmul D none
        (maximumf (addf (matmul D none X W1 (constant (F := Ideal) ⟨2, ![M, A]⟩ .f32 0x00000000#32)) (broadcastTo ⟨2, ![M, A]⟩ B1 hb))
          (broadcast ⟨2, ![M, A]⟩ (Scalar.ofBits (F := Ideal) .f32 0x00000000#32)))
        W2 (constant (F := Ideal) ⟨2, ![M, A]⟩ .f32 0x00000000#32)) (broadcastTo ⟨2, ![M, A]⟩ B2 hb) (ix2 p c)
      = twoLayer X W1 B1 W2 B2 (ix2 p c) := by
  rw [Cert.Lib.DenseLayer.layer_apply D hr hs hl0 hl1 hr0 hr1 _ W2 B2 hb p c, twoLayer_apply]
  refine congrArg (· + B2 (ix2 (0 : Fin 1) c)) (Finset.sum_congr rfl fun k _ => congrArg (· * W2 (ix2 k c)) ?_)
  rw [maximumf_apply, Cert.Lib.DenseLayer.layer_apply D hr hs hl0 hl1 hr0 hr1 X W1 B1 hb p k, broadcast_apply]
  exact congrArg (max _) Ideal.ofBits_zero_f32

/-! ## Weights that vanish from row `n` on -/

/-- Zero-padded weights: both sums keep their first `n` terms only. -/
theorem twoLayer_prefix {M n N : ℕ} (h : n ≤ N) (X : (⟨2, ![M, N]⟩ : Shape).Idx → EReal)
    (W1 : (⟨2, ![N, N]⟩ : Shape).Idx → EReal) (B1 : (⟨2, ![1, N]⟩ : Shape).Idx → EReal)
    (W2 : (⟨2, ![N, N]⟩ : Shape).Idx → EReal) (B2 : (⟨2, ![1, N]⟩ : Shape).Idx → EReal)
    (hW1 : ∀ j k : Fin N, n ≤ j.val → W1 (ix2 j k) = 0) (hW2 : ∀ k c : Fin N, n ≤ k.val → W2 (ix2 k c) = 0)
    (p : Fin M) (c : Fin N) :
    twoLayer X W1 B1 W2 B2 (ix2 p c)
      = (∑ k : Fin n, max ((∑ j : Fin n, X (ix2 p (Fin.castLE h j)) * W1 (ix2 (Fin.castLE h j) (Fin.castLE h k)))
            + B1 (ix2 (0 : Fin 1) (Fin.castLE h k))) 0 * W2 (ix2 (Fin.castLE h k) c))
        + B2 (ix2 (0 : Fin 1) c) := by
  rw [twoLayer_apply]
  refine congrArg (· + B2 (ix2 (0 : Fin 1) c)) ?_
  refine (sum_prefix h _ fun k hk => by rw [hW2 k c hk, mul_zero]).trans ?_
  refine Finset.sum_congr rfl fun k _ => ?_
  exact congrArg (fun s => max (s + B1 (ix2 (0 : Fin 1) (Fin.castLE h k))) 0 * W2 (ix2 (Fin.castLE h k) c))
    (sum_prefix h _ fun j hj => by rw [hW1 j _ hj, mul_zero])

/-! ## Weights that vanish off the diagonal blocks -/

/-- Block-diagonal weights (`Q` blocks of `B`): both sums keep the terms of the output column's own block only. -/
theorem twoLayer_block {M N Q B : ℕ} (hN : N = Q * B) (X : (⟨2, ![M, N]⟩ : Shape).Idx → EReal)
    (W1 : (⟨2, ![N, N]⟩ : Shape).Idx → EReal) (B1 : (⟨2, ![1, N]⟩ : Shape).Idx → EReal)
    (W2 : (⟨2, ![N, N]⟩ : Shape).Idx → EReal) (B2 : (⟨2, ![1, N]⟩ : Shape).Idx → EReal)
    (hW1 : ∀ j k : Fin N, j.val / B ≠ k.val / B → W1 (ix2 j k) = 0)
    (hW2 : ∀ k c : Fin N, k.val / B ≠ c.val / B → W2 (ix2 k c) = 0)
    (p : Fin M) (c : Fin N) (q : ℕ) (hq : q < Q) (hc : c.val / B = q) :
    twoLayer X W1 B1 W2 B2 (ix2 p c)
      = (∑ k : Fin B, max ((∑ j : Fin B, X (ix2 p (blockIdx hN q hq j)) * W1 (ix2 (blockIdx hN q hq j) (blockIdx hN q hq k)))
            + B1 (ix2 (0 : Fin 1) (blockIdx hN q hq k))) 0 * W2 (ix2 (blockIdx hN q hq k) c))
        + B2 (ix2 (0 : Fin 1) c) := by
  have hB : 0 < B := Nat.pos_of_ne_zero fun h0 => by subst h0; subst hN; rw [Nat.mul_zero] at c; exact c.elim0
  have hblk : ∀ b : Fin B, (blockIdx hN q hq b).val / B = q := fun b => by
    rw [blockIdx_val, Nat.mul_comm, Nat.mul_add_div hB, Nat.div_eq_of_lt b.isLt, Nat.add_zero]
  rw [twoLayer_apply]
  refine congrArg (· + B2 (ix2 (0 : Fin 1) c)) ?_
  refine (sum_block hN _ q hq fun k hk => by rw [hW2 k c (by rw [hc]; exact hk), mul_zero]).trans ?_
  refine Finset.sum_congr rfl fun k _ => ?_
  exact congrArg (fun s => max (s + B1 (ix2 (0 : Fin 1) (blockIdx hN q hq k))) 0 * W2 (ix2 (blockIdx hN q hq k) c))
    (sum_block hN _ q hq fun j hj => by rw [hW1 j _ (by rw [hblk k]; exact hj), mul_zero])

end Cert.Lib.TwoLayer

end
-- ==== Proof.KernelBlocks.lean ====
/-
  The packed kernel's output array after the run.

  The body's one store is two dense layers with a rectifier between, of the blocks it loaded (`pay_apply`). Point `t`
  of the 32 loads rows `t*512 .. t*512 + 511` of the packed batch and the whole of the two weight matrices and the two
  bias rows, and writes back the same rows of the output; since a row of two dense layers depends on the batch through
  that row only, what point `t` writes back is block `t` of ONE matrix, the two layers of the whole packed batch
  (`flushed_eq`). The 32 blocks of 512 rows cover the 16384 rows, so the array ends holding that matrix (`final`).
-/
import proofs.«124273_g2000506800854435_pallasbulk_1138_3_alg».proof.Proof.Gen.KernelIdeal.Frame
import proofs.«124273_g2000506800854435_pallasbulk_1138_3_alg».proof.Proof.LibTwoLayer
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Lib.TwoLayer

/-! ## The body's store at an entry -/

/-- The stored value, at `(p, n)`: two dense layers with a rectifier between, of the loaded blocks. -/
theorem pay_apply (x0 : Vec Ideal S512x640 .f32) (x1 : Vec Ideal S640x640 .f32) (x2 : Vec Ideal S1x640 .f32)
    (x3 : Vec Ideal S640x640 .f32) (x4 : Vec Ideal S1x640 .f32) (p : Fin 512) (n : Fin 640) :
    k0_pay1 x0 x1 x2 x3 x4 (ix2 p n) = twoLayer x0 x1 x2 x3 x4 (ix2 p n) := by
  unfold k0_pay1
  simp only [shapeCast_self]
  exact body_apply dot_S512x640_S640x640_S512x640_1_0_0_1_n_n rfl rfl (fun j q => rfl)
    (fun j q => DotDims.lhsIdx_val_of_single _ rfl j q) (fun j q => DotDims.rhsIdx_val_of_single _ rfl j q)
    (fun j q => rfl) x0 x1 x2 x3 x4 broadcasts_S1x640_S512x640 p n

theorem pay_eq (x0 : Vec Ideal S512x640 .f32) (x1 : Vec Ideal S640x640 .f32) (x2 : Vec Ideal S1x640 .f32)
    (x3 : Vec Ideal S640x640 .f32) (x4 : Vec Ideal S1x640 .f32) (y : S512x640.Idx) :
    k0_pay1 x0 x1 x2 x3 x4 y = twoLayer x0 x1 x2 x3 x4 y := by
  have e : y = ix2 (y 0) (y 1) := eq_ix2 y
  rw [e]
  exact pay_apply x0 x1 x2 x3 x4 (y 0) (y 1)

/-! ## What a point writes back -/

variable (m : (ℓ : Loc nD τ sig) → Buf (Elt Ideal) ℓ)

/-- The two layers of the whole packed batch, as the region finds the five operand arrays. -/
def whole (c : Dev nD) : S16384x640.Idx → EReal :=
  twoLayer (V m c main_call0_v0 : S16384x640.Idx → EReal) (V m c main_call0_v7 : S640x640.Idx → EReal)
    (V m c main_call0_v12 : S1x640.Idx → EReal) (V m c main_call0_v8 : S640x640.Idx → EReal)
    (V m c main_call0_v16 : S1x640.Idx → EReal)

theorem hz : (![0, 0] : Fin 2 → Nat) = fun _ => 0 := funext fun a => by fin_cases a <;> rfl

/-- The printed index maps over the 32 points: the batch's and the output's blocks are block `t` of the rows, the
    other four windows stay at the one block that is their whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array windows' blocks are their arrays. -/
theorem iblk1_eq (c : Dev nD) (t : Fin cfg0.N) : (iblk m c 1 t : S640x640.Idx → EReal) = V m c main_call0_v7 := by
  obtain ⟨-, -, e0, e1, -⟩ := idx_facts t
  funext y
  show V m c main_call0_v7 (((cfg0.win 1).blk t).view.emb y) = V m c main_call0_v7 y
  refine congrArg _ (funext fun a => Fin.ext ?_)
  match a with
  | ⟨0, _⟩ => show win0_1.index t (0 : Fin 2) * 640 + 1 * (y 0).val = (y 0).val; omega
  | ⟨1, _⟩ => show win0_1.index t (1 : Fin 2) * 640 + 1 * (y 1).val = (y 1).val; omega

theorem iblk2_eq (c : Dev nD) (t : Fin cfg0.N) : (iblk m c 2 t : S1x640.Idx → EReal) = V m c main_call0_v12 := by
  obtain ⟨-, -, -, -, e0, e1, -⟩ := idx_facts t
  funext y
  show V m c main_call0_v12 (((cfg0.win 2).blk t).view.emb y) = V m c main_call0_v12 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 640 + 1 * (y 1).val = (y 1).val; omega

theorem iblk3_eq (c : Dev nD) (t : Fin cfg0.N) : (iblk m c 3 t : S640x640.Idx → EReal) = V m c main_call0_v8 := by
  obtain ⟨-, -, -, -, -, -, e0, e1, -⟩ := idx_facts t
  funext y
  show V m c main_call0_v8 (((cfg0.win 3).blk t).view.emb y) = V m c main_call0_v8 y
  refine congrArg _ (funext fun a => Fin.ext ?_)
  match a with
  | ⟨0, _⟩ => show win0_3.index t (0 : Fin 2) * 640 + 1 * (y 0).val = (y 0).val; omega
  | ⟨1, _⟩ => show win0_3.index t (1 : Fin 2) * 640 + 1 * (y 1).val = (y 1).val; omega

theorem iblk4_eq (c : Dev nD) (t : Fin cfg0.N) : (iblk m c 4 t : S1x640.Idx → EReal) = V m c main_call0_v16 := by
  obtain ⟨-, -, -, -, -, -, -, -, e0, e1, -⟩ := idx_facts t
  funext y
  show V m c main_call0_v16 (((cfg0.win 4).blk t).view.emb y) = V m c main_call0_v16 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 640 + 1 * (y 1).val = (y 1).val; omega

/-- WHAT POINT `t` WRITES BACK is block `t` of the two layers of the whole packed batch. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold out0_5
  rw [View.canon_unit_zero hz]
  simp only [View.ld_unit_zero (S := S512x640) hz, View.ld_unit_zero (S := S640x640) hz, View.ld_unit_zero (S := S1x640) hz]
  rw [iblk1_eq, iblk2_eq, iblk3_eq, iblk4_eq]
  obtain ⟨a0, a1, -, -, -, -, -, -, -, -, o0, o1⟩ := idx_facts t
  funext y
  show k0_pay1 (iblk m c 0 t) (V m c main_call0_v7) (V m c main_call0_v12) (V m c main_call0_v8) (V m c main_call0_v16) y
    = whole m c (((cfg0.win 5).blk t).view.emb y)
  refine (pay_eq (iblk m c 0 t) (V m c main_call0_v7) (V m c main_call0_v12) (V m c main_call0_v8) (V m c main_call0_v16) y).trans ?_
  unfold whole
  refine twoLayer_congr_row _ _ _ _ _ _ y (((cfg0.win 5).blk t).view.emb y) (Fin.ext ?_) fun j => ?_
  · show (y 1).val = win0_5.index t (1 : Fin 2) * 640 + 1 * (y 1).val
    omega
  · show V m c main_call0_v0 (((cfg0.win 0).blk t).view.emb (ix2 (y 0) j)) = V m c main_call0_v0 (ix2 ((((cfg0.win 5).blk t).view.emb y) 0) j)
    refine congrArg _ (funext fun a => Fin.ext ?_)
    match a with
    | ⟨0, _⟩ => show win0_0.index t (0 : Fin 2) * 512 + 1 * (y 0).val = win0_5.index t (0 : Fin 2) * 512 + 1 * (y 0).val; omega
    | ⟨1, _⟩ => show win0_0.index t (1 : Fin 2) * 640 + 1 * j.val = j.val; omega

/-! ## The cover, and the array after the run -/

/-- An index of the output array is in point `t`'s block iff each coordinate is in the block's range on its axis. -/
theorem mem_blk (t : Fin cfg0.N) (i : S16384x640.Idx) :
    i ∈ ((cfg0.win 5).blk t).view.set ↔ ∀ a : Fin 2, win0_5.index t a * S512x640.size a ≤ (i a).val ∧ (i a).val < win0_5.index t a * S512x640.size a + S512x640.size a := by
  show i ∈ ((View.whole main_call0_v17).slice (win0_5.rect t)).set ↔ _
  rw [View.set_slice_whole, Rect.mem_set_unit]
  exact Iff.rfl

/-- Row `r` of the output is in the block of point `r / 512`. -/
theorem cover (i : S16384x640.Idx) : ∃ t : Fin cfg0.N, (cfg0.win 5).flush t = true ∧ i ∈ ((cfg0.win 5).blk t).view.set := by
  have hi0 : (i 0).val < 16384 := idx2_lt0 i
  have hi1 : (i 1).val < 640 := idx2_lt1 i
  have hN : cfg0.N = 32 := N_0
  let t : Fin cfg0.N := ⟨(i 0).val / 512, by omega⟩
  obtain ⟨-, -, -, -, -, -, -, -, -, -, o0, o1⟩ := idx_facts t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 640 ≤ (i 1).val ∧ (i 1).val < win0_5.index t (1 : Fin 2) * 640 + 640; omega

/-- THE ARRAY after the run: the two layers of the whole packed batch. -/
theorem final (c : Dev nD) : (dats m 0 c).arrAt 5 cfg0.N = whole m c :=
  (dats m 0 c).arrAt_eq_of_cover 5 (whole m c) (fun t _ => flushed_eq m c t) cover

end Cert.KernelIdeal.Blocks

end
-- ==== Proof.Mlp.lean ====
/-
  The function both programs compute: a two-layer perceptron on ten features.

  For a batch `x : [B, 10]`, weights `w1, w2 : [10, 10]` (stored input-by-output) and biases `b1, b2 : [10]`, entry
  `(r, c)` of the result is `Σ_k max (Σ_j x(r,j) · w1(j,k) + b1(k)) 0 · w2(k,c) + b2(c)`, every operation the exact one
  on the extended reals.
-/
import Idealize.ShloMosaic.PureOps.Ideal
import Idealize.ShloMosaic.Lib.ValueIdx

noncomputable section

namespace Cert.Mlp

open Idealize.ShloMosaic Idealize.ShloMosaic.ValueIdx

/-- The perceptron's result, entry by entry. -/
def mlp {B : ℕ} (x : (⟨2, ![B, 10]⟩ : Shape).Idx → EReal) (w1 : (⟨2, ![10, 10]⟩ : Shape).Idx → EReal)
    (b1 : (⟨1, ![10]⟩ : Shape).Idx → EReal) (w2 : (⟨2, ![10, 10]⟩ : Shape).Idx → EReal)
    (b2 : (⟨1, ![10]⟩ : Shape).Idx → EReal) : (⟨2, ![B, 10]⟩ : Shape).Idx → EReal := fun i =>
  (∑ k : Fin 10, max ((∑ j : Fin 10, x (ix2 (i 0) j) * w1 (ix2 j k)) + b1 (ix1 k)) 0 * w2 (ix2 k (i 1))) + b2 (ix1 (i 1))

theorem mlp_apply {B : ℕ} (x : (⟨2, ![B, 10]⟩ : Shape).Idx → EReal) (w1 : (⟨2, ![10, 10]⟩ : Shape).Idx → EReal)
    (b1 : (⟨1, ![10]⟩ : Shape).Idx → EReal) (w2 : (⟨2, ![10, 10]⟩ : Shape).Idx → EReal)
    (b2 : (⟨1, ![10]⟩ : Shape).Idx → EReal) (r : Fin B) (c : Fin 10) :
    mlp x w1 b1 w2 b2 (ix2 r c)
      = (∑ k : Fin 10, max ((∑ j : Fin 10, x (ix2 r j) * w1 (ix2 j k)) + b1 (ix1 k)) 0 * w2 (ix2 k c)) + b2 (ix1 c) := rfl

end Cert.Mlp

end
-- ==== Proof.KernelAlgebra.lean ====
/-
  The packed computation is the perceptron.

  Two dense layers of the packed batch `[16384, 640]` against the Kronecker weights and the tiled biases, viewed back as
  `[1048576, 10]`: entry `(r, c)` sits at packed row `r / 64`, lane `(r mod 64) * 10 + c`. The Kronecker weights vanish
  off the diagonal 10×10 blocks, so both sums keep only the ten terms of block `r mod 64`; there the packed batch reads
  logical row `r`, a diagonal block of a Kronecker weight is the weight, and a tiled bias is the bias.
-/
import proofs.«124273_g2000506800854435_pallasbulk_1138_3_alg».proof.Proof.KernelTerms
import proofs.«124273_g2000506800854435_pallasbulk_1138_3_alg».proof.Proof.LibTwoLayer
import proofs.«124273_g2000506800854435_pallasbulk_1138_3_alg».proof.Proof.Mlp

noncomputable section

namespace Cert.KernelIdeal.Packed

open Idealize.ShloMosaic Idealize.ShloMosaic.ValueIdx
open Cert.KernelIdeal Cert.KernelIdeal.Gen Cert.Lib.TwoLayer Cert.Lib.SumSupport Cert.Mlp

/-- Off the diagonal blocks a Kronecker weight is zero. -/
theorem kron_offdiag (w : FVec Ideal S10x10 .f32) (J K : Fin 640) (h : J.val / 10 ≠ K.val / 10) : kron w (ix2 J K) = 0 := by
  have hJ : J.val < 640 := J.isLt
  have hK : K.val < 640 := K.isLt
  rw [kron_apply w J K ⟨J.val / 10, by omega⟩ ⟨K.val / 10, by omega⟩ ⟨J.val % 10, by omega⟩ ⟨K.val % 10, by omega⟩
    (by show J.val = J.val / 10 * 10 + J.val % 10; omega) (by show K.val = K.val / 10 * 10 + K.val % 10; omega)]
  exact if_neg fun e => h (congrArg Fin.val e)

/-- On diagonal block `a` a Kronecker weight is the weight. -/
theorem kron_diag (w : FVec Ideal S10x10 .f32) (J K : Fin 640) (a : Fin 64) (b d : Fin 10)
    (hJ : J.val = a.val * 10 + b.val) (hK : K.val = a.val * 10 + d.val) : kron w (ix2 J K) = w (ix2 b d) := by
  rw [kron_apply w J K a a b d hJ hK]
  exact if_pos rfl

theorem h640 : 640 = 64 * 10 := rfl

/-- THE PACKED COMPUTATION, viewed back as `[1048576, 10]`, is the perceptron of the arguments. -/
theorem packed_value (x : FVec Ideal S1048576x10 .f32) (w1 : FVec Ideal S10x10 .f32) (b1 : FVec Ideal S10 .f32)
    (w2 : FVec Ideal S10x10 .f32) (b2 : FVec Ideal S10 .f32) :
    shapeCast S1048576x10 (twoLayer (packed x) (kron w1) (tile b1) (kron w2) (tile b2)) shapeCasts_S16384x640_S1048576x10
      = mlp x w1 b1 w2 b2 := by
  funext i
  obtain ⟨r, c, rfl⟩ : ∃ (r : Fin 1048576) (c : Fin 10), i = ix2 r c := ⟨i 0, i 1, eq_ix2 i⟩
  have hr : r.val < 1048576 := r.isLt
  have hc : c.val < 10 := c.isLt
  have hq : r.val % 64 < 64 := Nat.mod_lt _ (by decide)
  let R : Fin 16384 := ⟨r.val / 64, by omega⟩
  let q : Fin 64 := ⟨r.val % 64, hq⟩
  let n : Fin 640 := ⟨r.val % 64 * 10 + c.val, by omega⟩
  have hR : R.val = r.val / 64 := rfl
  have hn : n.val = r.val % 64 * 10 + c.val := rfl
  refine (shapeCast_apply _ shapeCasts_S16384x640_S1048576x10 (ix2 r c) (ix2 R n) ?_).trans ?_
  · rw [Shape.rowMajor_val_two, Shape.rowMajor_val_two]
    show R.val * 640 + n.val = r.val * 10 + c.val
    omega
  rw [twoLayer_block h640 (packed x) (kron w1) (tile b1) (kron w2) (tile b2) (kron_offdiag w1) (kron_offdiag w2) R n
    (r.val % 64) hq (by rw [hn]; omega), mlp_apply]
  have hblk : ∀ k : Fin 10, (blockIdx h640 (r.val % 64) hq k).val = q.val * 10 + k.val := fun k => rfl
  refine congrArg₂ (· + ·) (Finset.sum_congr rfl fun k _ => congrArg₂ (· * ·) (congrArg (max · 0) (congrArg₂ (· + ·)
    (Finset.sum_congr rfl fun j _ => congrArg₂ (· * ·) ?_ ?_) ?_)) ?_) ?_
  · exact packed_apply x R _ r j (by rw [hblk j, hR]; show r.val * 10 + j.val = r.val / 64 * 640 + (r.val % 64 * 10 + j.val); omega)
  · exact kron_diag w1 _ _ q j k (hblk j) (hblk k)
  · exact tile_apply b1 _ q k (hblk k)
  · exact kron_diag w2 _ n q k c (hblk k) hn
  · exact tile_apply b2 n q c hn

end Cert.KernelIdeal.Packed

end
-- ==== Proof.KernelValue.lean ====
/-
  The packed kernel's run, read: @main's result is the perceptron of the arguments.

  The region leaves its output array at the two layers of the packed batch (KernelBlocks); the one host line after the
  region views that array back as `[1048576, 10]`; the operand arrays are the packed batch, the Kronecker weights and
  the tiled biases of the arguments (KernelOperands); and that view of those two layers is the perceptron
  (KernelAlgebra).
-/
import proofs.«124273_g2000506800854435_pallasbulk_1138_3_alg».proof.Proof.KernelOperands
import proofs.«124273_g2000506800854435_pallasbulk_1138_3_alg».proof.Proof.KernelBlocks
import proofs.«124273_g2000506800854435_pallasbulk_1138_3_alg».proof.Proof.KernelAlgebra
import Idealize.ShloMosaic.Lib.StableHlo.Run

noncomputable section

namespace Cert.KernelIdeal.RunValue

open Idealize.ShloMosaic Idealize.ShloMosaic.TcCoe Idealize.SL.Sem Idealize.ShloMosaic.ValueIdx
open Cert.KernelIdeal Cert.KernelIdeal.Gen Cert.KernelIdeal.Packed Cert.Lib.TwoLayer Cert.Mlp

variable (m : (ℓ : Loc nD τ sig) → Buf (Elt Ideal) ℓ) (ρ : Dev nD → PrngReg)

/-- The perceptron of the argument arrays as launched. -/
abbrev result (c : Dev nD) : S1048576x10.Idx → EReal :=
  mlp (m ((c : Thread nD τ).loc main_arg0) : S1048576x10.Idx → EReal) (m ((c : Thread nD τ).loc main_arg1) : S10x10.Idx → EReal)
    (m ((c : Thread nD τ).loc main_arg2) : S10.Idx → EReal) (m ((c : Thread nD τ).loc main_arg3) : S10x10.Idx → EReal)
    (m ((c : Thread nD τ).loc main_arg4) : S10.Idx → EReal)

/-- The host line after the region, applied to the region's output array. -/
theorem tail_term (c : Dev nD) :
    (Pipeline.afterTail₀ cfgs (dats m) 0 (V0 m) [hostOps1] c main_v0 : S1048576x10.Idx → EReal)
      = shapeCast S1048576x10 (Pipeline.withArrays spec0 c (V0 m c) (fun w => (dats m 0 c).arrAt w cfg0.N) (Proc.devRef .tc (Pipeline.arrRef spec0 5))) shapeCasts_S16384x640_S1048576x10 := by
  unfold Pipeline.afterTail₀
  show StableHlo.after hostOps1 _ (Proc.devRef .tc main_v0) = _
  after_results
  rfl

/-- @main's result after the run is the perceptron of the arguments. -/
theorem tail (c : Dev nD) :
    (Pipeline.afterTail₀ cfgs (dats m) 0 (V0 m) [hostOps1] c main_v0 : S1048576x10.Idx → EReal) = result m c := by
  rw [tail_term, Pipeline.withArrays_arr spec0 launch0.win.arr_inj c (V0 m c) _ 5, Blocks.final]
  unfold Blocks.whole
  rw [V_x, V_m1, V_b1, V_m2, V_b2]
  exact packed_value _ _ _ _ _

/-- THE RUN, read: every weakly fair execution terminates with @main's result at the perceptron of the arguments and
    the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v0 (Pipeline.mem_restRefs_of main_v0 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.ReferenceTerms.lean ====
/-
  The lane-padded reference's three host terms, and each read at an entry.

  The reference pads the feature axis from 10 to 128 lanes with zeros: the batch `x : [1048576, 10]` on the right
  (`padX`), each weight matrix `w : [10, 10]` below and on the right (`padW`), each bias `b : [10]`, as the one row of a
  `[1, 10]` array, on the right (`padB`). Inside the original extents a padded array reads the original entry; a
  padded weight matrix is zero from row 10 on.
-/
import proofs.«124273_g2000506800854435_pallasbulk_1138_3_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost

noncomputable section

namespace Cert.ReferenceIdeal.Padded

open Idealize.ShloMosaic Idealize.ShloMosaic.ValueIdx
open Cert.ReferenceIdeal Cert.ReferenceIdeal.Gen

/-! ## The host terms -/

/-- The padding value: the integer zero converted. -/
def zero : FVec Ideal S_ .f32 := sitofp .f32 (constantI S_ 32 0#32)

/-- The batch with 118 zero lanes appended to every row. -/
def padX (x : FVec Ideal S1048576x10 .f32) : FVec Ideal S1048576x128 .f32 :=
  pad S1048576x128 ![0, 0] ![0, 118] ![0, 0] x zero pads_S1048576x10_S1048576x128_000_01180 h_S_

/-- A weight matrix with 118 zero rows and 118 zero columns appended. -/
def padW (w : FVec Ideal S10x10 .f32) : FVec Ideal S128x128 .f32 :=
  pad S128x128 ![0, 0] ![118, 118] ![0, 0] w zero pads_S10x10_S128x128_01180_01180 h_S_

/-- A bias as one row, with 118 zero lanes appended. -/
def padB (b : FVec Ideal S10 .f32) : FVec Ideal S1x128 .f32 :=
  pad S1x128 ![0, 0] ![0, 118] ![0, 0] (shapeCast S1x10 b shapeCasts_S10_S1x10) zero pads_S1x10_S1x128_000_01180 h_S_

/-! ## Each read at an entry -/

theorem zero_apply (i : S_.Idx) : zero i = 0 := by
  show (Scalar.sitofp .f32 0#32 : Ideal .f32) = 0
  exact sitofp_zero

/-- The first ten lanes of a padded row are the row. -/
theorem padX_apply (x : FVec Ideal S1048576x10 .f32) (r : Fin 1048576) (j : Fin 128) (j' : Fin 10) (h : j.val = j'.val) :
    padX x (ix2 r j) = x (ix2 r j') := by
  unfold padX
  refine pad_apply_of_inside ![0, 0] ![0, 118] ![0, 0] x zero _ h_S_ (ix2 r j) (ix2 r j') fun a => ?_
  match a with
  | ⟨0, _⟩ => show r.val = 0 + r.val * (0 + 1); omega
  | ⟨1, _⟩ => show j.val = 0 + j'.val * (0 + 1); omega

/-- The leading 10×10 block of a padded weight matrix is the matrix. -/
theorem padW_apply (w : FVec Ideal S10x10 .f32) (j k : Fin 128) (j' k' : Fin 10) (hj : j.val = j'.val) (hk : k.val = k'.val) :
    padW w (ix2 j k) = w (ix2 j' k') := by
  unfold padW
  refine pad_apply_of_inside ![0, 0] ![118, 118] ![0, 0] w zero _ h_S_ (ix2 j k) (ix2 j' k') fun a => ?_
  match a with
  | ⟨0, _⟩ => show j.val = 0 + j'.val * (0 + 1); omega
  | ⟨1, _⟩ => show k.val = 0 + k'.val * (0 + 1); omega

/-- A padded weight matrix is zero from row 10 on. -/
theorem padW_apply_low (w : FVec Ideal S10x10 .f32) (j k : Fin 128) (hj : 10 ≤ j.val) : padW w (ix2 j k) = 0 := by
  unfold padW
  refine (pad_apply_of_not_inside ![0, 0] ![118, 118] ![0, 0] w zero _ h_S_ (ix2 j k) (0 : Fin 2) ?_).trans (zero_apply _)
  show ¬(0 ≤ j.val ∧ (j.val - 0) % (0 + 1) = 0 ∧ (j.val - 0) / (0 + 1) < 10)
  omega

/-- The first ten lanes of a padded bias row are the bias. -/
theorem padB_apply (b : FVec Ideal S10 .f32) (k : Fin 128) (k' : Fin 10) (hk : k.val = k'.val) :
    padB b (ix2 (0 : Fin 1) k) = b (ix1 k') := by
  unfold padB
  refine (pad_apply_of_inside ![0, 0] ![0, 118] ![0, 0] _ zero _ h_S_ (ix2 (0 : Fin 1) k) (ix2 (0 : Fin 1) k') fun a => ?_).trans ?_
  · match a with
    | ⟨0, _⟩ => show (0 : ℕ) = 0 + 0 * (0 + 1); omega
    | ⟨1, _⟩ => show k.val = 0 + k'.val * (0 + 1); omega
  refine shapeCast_apply b shapeCasts_S10_S1x10 (ix2 (0 : Fin 1) k') (ix1 k') ?_
  rw [Shape.rowMajor_val_one, Shape.rowMajor_val_two]
  show k'.val = 0 * 10 + k'.val
  omega

end Cert.ReferenceIdeal.Padded

end
-- ==== Proof.ReferenceOperands.lean ====
/-
  What the lane-padded reference's region finds in its five operand arrays: the host operations before the region
  leave the padded batch, the two padded weights and the two padded bias rows (the terms of ReferenceTerms) of the
  arguments.
-/
import proofs.«124273_g2000506800854435_pallasbulk_1138_3_alg».proof.Proof.Gen.ReferenceIdeal.Frame
import proofs.«124273_g2000506800854435_pallasbulk_1138_3_alg».proof.Proof.ReferenceTerms
import Idealize.ShloMosaic.Lib.StableHlo.Run
import Idealize.ShloMosaic.Lib.Pipeline.Value
import Idealize.ShloMosaic.Lib.ValueIdx

noncomputable section

namespace Cert.ReferenceIdeal.Padded

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ)

theorem V_x (c : Dev nD) : (V m c main_call0_v0 : S1048576x128.Idx → EReal) = padX (m ((c : Thread nD τ).loc main_arg0)) := by
  show StableHlo.after hostOps0 (fun b => m (c, b)) (Proc.devRef .tc main_call0_v0) = _
  after_results
  rfl

theorem V_w1 (c : Dev nD) : (V m c main_call0_v1 : S128x128.Idx → EReal) = padW (m ((c : Thread nD τ).loc main_arg1)) := by
  show StableHlo.after hostOps0 (fun b => m (c, b)) (Proc.devRef .tc main_call0_v1) = _
  after_results
  rfl

theorem V_w2 (c : Dev nD) : (V m c main_call0_v2 : S128x128.Idx → EReal) = padW (m ((c : Thread nD τ).loc main_arg3)) := by
  show StableHlo.after hostOps0 (fun b => m (c, b)) (Proc.devRef .tc main_call0_v2) = _
  after_results
  rfl

theorem V_b1 (c : Dev nD) : (V m c main_call0_v4 : S1x128.Idx → EReal) = padB (m ((c : Thread nD τ).loc main_arg2)) := by
  show StableHlo.after hostOps0 (fun b => m (c, b)) (Proc.devRef .tc main_call0_v4) = _
  after_results
  rfl

theorem V_b2 (c : Dev nD) : (V m c main_call0_v6 : S1x128.Idx → EReal) = padB (m ((c : Thread nD τ).loc main_arg4)) := by
  show StableHlo.after hostOps0 (fun b => m (c, b)) (Proc.devRef .tc main_call0_v6) = _
  after_results
  rfl

end Cert.ReferenceIdeal.Padded

end
-- ==== Proof.ReferenceBlocks.lean ====
/-
  The lane-padded reference kernel's output array after the run.

  The body's one store is two dense layers with a rectifier between, of the blocks it loaded (`pay_apply`). Point `t`
  of the 2048 loads rows `t*512 .. t*512 + 511` of the padded batch and the whole of the two padded weight matrices and
  the two padded bias rows, and writes back the same rows of the output; since a row of two dense layers depends on the
  batch through that row only, what point `t` writes back is block `t` of ONE matrix, the two layers of the whole
  padded batch (`flushed_eq`). The 2048 blocks of 512 rows cover the 1048576 rows, so the array ends holding that
  matrix (`final`).
-/
import proofs.«124273_g2000506800854435_pallasbulk_1138_3_alg».proof.Proof.Gen.ReferenceIdeal.Frame
import proofs.«124273_g2000506800854435_pallasbulk_1138_3_alg».proof.Proof.LibTwoLayer
import Idealize.ShloMosaic.Lib.Pipeline.Value
import Idealize.ShloMosaic.Lib.ValueIdx

set_option maxRecDepth 16384

noncomputable section

namespace Cert.ReferenceIdeal.Blocks

open Idealize.ShloMosaic Idealize.ShloMosaic.TcCoe Idealize.SL.Sem Idealize.ShloMosaic.ValueIdx
open Idealize.ShloMosaic.Pipeline (Dat)
open Cert.ReferenceIdeal Cert.ReferenceIdeal.Gen Cert.Lib.TwoLayer

/-! ## The body's store at an entry -/

/-- The stored value, at `(p, n)`: two dense layers with a rectifier between, of the loaded blocks. -/
theorem pay_apply (x0 : Vec Ideal S512x128 .f32) (x1 : Vec Ideal S128x128 .f32) (x2 : Vec Ideal S1x128 .f32)
    (x3 : Vec Ideal S128x128 .f32) (x4 : Vec Ideal S1x128 .f32) (p : Fin 512) (n : Fin 128) :
    k0_pay1 x0 x1 x2 x3 x4 (ix2 p n) = twoLayer x0 x1 x2 x3 x4 (ix2 p n) := by
  unfold k0_pay1
  simp only [shapeCast_self]
  exact body_apply dot_S512x128_S128x128_S512x128_1_0_0_1_n_n rfl rfl (fun j q => rfl)
    (fun j q => DotDims.lhsIdx_val_of_single _ rfl j q) (fun j q => DotDims.rhsIdx_val_of_single _ rfl j q)
    (fun j q => rfl) x0 x1 x2 x3 x4 broadcasts_S1x128_S512x128 p n

theorem pay_eq (x0 : Vec Ideal S512x128 .f32) (x1 : Vec Ideal S128x128 .f32) (x2 : Vec Ideal S1x128 .f32)
    (x3 : Vec Ideal S128x128 .f32) (x4 : Vec Ideal S1x128 .f32) (y : S512x128.Idx) :
    k0_pay1 x0 x1 x2 x3 x4 y = twoLayer x0 x1 x2 x3 x4 y := by
  have e : y = ix2 (y 0) (y 1) := eq_ix2 y
  rw [e]
  exact pay_apply x0 x1 x2 x3 x4 (y 0) (y 1)

/-! ## What a point writes back -/

variable (m : (ℓ : Loc nD τ sig) → Buf (Elt Ideal) ℓ)

/-- The two layers of the whole padded batch, as the region finds the five operand arrays. -/
def whole (c : Dev nD) : S1048576x128.Idx → EReal :=
  twoLayer (V m c main_call0_v0 : S1048576x128.Idx → EReal) (V m c main_call0_v1 : S128x128.Idx → EReal)
    (V m c main_call0_v4 : S1x128.Idx → EReal) (V m c main_call0_v2 : S128x128.Idx → EReal)
    (V m c main_call0_v6 : S1x128.Idx → EReal)

theorem hz : (![0, 0] : Fin 2 → Nat) = fun _ => 0 := funext fun a => by fin_cases a <;> rfl

/-- The printed index maps over the 2048 points: the batch's and the output's blocks are block `t` of the rows, the
    other four windows stay at the one block that is their whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array windows' blocks are their arrays. -/
theorem iblk1_eq (c : Dev nD) (t : Fin cfg0.N) : (iblk m c 1 t : S128x128.Idx → EReal) = V m c main_call0_v1 := by
  obtain ⟨-, -, e0, e1, -⟩ := idx_facts t
  funext y
  show V m c main_call0_v1 (((cfg0.win 1).blk t).view.emb y) = V m c main_call0_v1 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem iblk2_eq (c : Dev nD) (t : Fin cfg0.N) : (iblk m c 2 t : S1x128.Idx → EReal) = V m c main_call0_v4 := by
  obtain ⟨-, -, -, -, e0, e1, -⟩ := idx_facts t
  funext y
  show V m c main_call0_v4 (((cfg0.win 2).blk t).view.emb y) = V m c main_call0_v4 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem iblk3_eq (c : Dev nD) (t : Fin cfg0.N) : (iblk m c 3 t : S128x128.Idx → EReal) = V m c main_call0_v2 := by
  obtain ⟨-, -, -, -, -, -, e0, e1, -⟩ := idx_facts t
  funext y
  show V m c main_call0_v2 (((cfg0.win 3).blk t).view.emb y) = V m c main_call0_v2 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem iblk4_eq (c : Dev nD) (t : Fin cfg0.N) : (iblk m c 4 t : S1x128.Idx → EReal) = V m c main_call0_v6 := by
  obtain ⟨-, -, -, -, -, -, -, -, e0, e1, -⟩ := idx_facts t
  funext y
  show V m c main_call0_v6 (((cfg0.win 4).blk t).view.emb y) = V m c main_call0_v6 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- WHAT POINT `t` WRITES BACK is block `t` of the two layers of the whole padded batch. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold out0_5
  rw [View.canon_unit_zero hz]
  simp only [View.ld_unit_zero (S := S512x128) hz, View.ld_unit_zero (S := S128x128) hz, View.ld_unit_zero (S := S1x128) hz]
  rw [iblk1_eq, iblk2_eq, iblk3_eq, iblk4_eq]
  obtain ⟨a0, a1, -, -, -, -, -, -, -, -, o0, o1⟩ := idx_facts t
  funext y
  show k0_pay1 (iblk m c 0 t) (V m c main_call0_v1) (V m c main_call0_v4) (V m c main_call0_v2) (V m c main_call0_v6) y
    = whole m c (((cfg0.win 5).blk t).view.emb y)
  refine (pay_eq (iblk m c 0 t) (V m c main_call0_v1) (V m c main_call0_v4) (V m c main_call0_v2) (V m c main_call0_v6) y).trans ?_
  unfold whole
  refine twoLayer_congr_row _ _ _ _ _ _ y (((cfg0.win 5).blk t).view.emb y) (Fin.ext ?_) fun j => ?_
  · show (y 1).val = win0_5.index t (1 : Fin 2) * 128 + 1 * (y 1).val
    omega
  · show V m c main_call0_v0 (((cfg0.win 0).blk t).view.emb (ix2 (y 0) j)) = V m c main_call0_v0 (ix2 ((((cfg0.win 5).blk t).view.emb y) 0) j)
    refine congrArg _ (funext fun a => Fin.ext ?_)
    match a with
    | ⟨0, _⟩ => show win0_0.index t (0 : Fin 2) * 512 + 1 * (y 0).val = win0_5.index t (0 : Fin 2) * 512 + 1 * (y 0).val; omega
    | ⟨1, _⟩ => show win0_0.index t (1 : Fin 2) * 128 + 1 * j.val = j.val; omega

/-! ## The cover, and the array after the run -/

/-- An index of the output array is in point `t`'s block iff each coordinate is in the block's range on its axis. -/
theorem mem_blk (t : Fin cfg0.N) (i : S1048576x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_call0_v7).slice (win0_5.rect t)).set ↔ _
  rw [View.set_slice_whole, Rect.mem_set_unit]
  exact Iff.rfl

/-- Row `r` of the output is in the block of point `r / 512`. -/
theorem cover (i : S1048576x128.Idx) : ∃ t : Fin cfg0.N, (cfg0.win 5).flush t = true ∧ i ∈ ((cfg0.win 5).blk t).view.set := by
  have hi0 : (i 0).val < 1048576 := idx2_lt0 i
  have hi1 : (i 1).val < 128 := idx2_lt1 i
  have hN : cfg0.N = 2048 := N_0
  let t : Fin cfg0.N := ⟨(i 0).val / 512, by omega⟩
  obtain ⟨-, -, -, -, -, -, -, -, -, -, o0, o1⟩ := idx_facts t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 128 ≤ (i 1).val ∧ (i 1).val < win0_5.index t (1 : Fin 2) * 128 + 128; omega

/-- THE ARRAY after the run: the two layers of the whole padded batch. -/
theorem final (c : Dev nD) : (dats m 0 c).arrAt 5 cfg0.N = whole m c :=
  (dats m 0 c).arrAt_eq_of_cover 5 (whole m c) (fun t _ => flushed_eq m c t) cover

end Cert.ReferenceIdeal.Blocks

end
-- ==== Proof.ReferenceAlgebra.lean ====
/-
  The lane-padded computation is the perceptron.

  Two dense layers of the padded batch `[1048576, 128]` against the padded weights and bias rows, cut back to the first
  ten lanes: the padded weights vanish from row 10 on, so both sums keep only their first ten terms; there every padded
  array reads the original entry.
-/
import proofs.«124273_g2000506800854435_pallasbulk_1138_3_alg».proof.Proof.ReferenceTerms
import proofs.«124273_g2000506800854435_pallasbulk_1138_3_alg».proof.Proof.LibTwoLayer
import proofs.«124273_g2000506800854435_pallasbulk_1138_3_alg».proof.Proof.Mlp

noncomputable section

namespace Cert.ReferenceIdeal.Padded

open Idealize.ShloMosaic Idealize.ShloMosaic.ValueIdx
open Cert.ReferenceIdeal Cert.ReferenceIdeal.Gen Cert.Lib.TwoLayer Cert.Mlp

theorem h10 : 10 ≤ 128 := by decide

/-- THE PADDED COMPUTATION, cut back to ten lanes, is the perceptron of the arguments. -/
theorem padded_value (x : FVec Ideal S1048576x10 .f32) (w1 : FVec Ideal S10x10 .f32) (b1 : FVec Ideal S10 .f32)
    (w2 : FVec Ideal S10x10 .f32) (b2 : FVec Ideal S10 .f32) :
    extractStridedSlice S1048576x10 ![0, 0] (twoLayer (padX x) (padW w1) (padB b1) (padW w2) (padB b2))
        slices_S1048576x128_S1048576x10_0_0
      = mlp x w1 b1 w2 b2 := by
  funext i
  obtain ⟨r, c, rfl⟩ : ∃ (r : Fin 1048576) (c : Fin 10), i = ix2 r c := ⟨i 0, i 1, eq_ix2 i⟩
  have hc : c.val < 10 := c.isLt
  let c' : Fin 128 := ⟨c.val, by omega⟩
  have hc' : c'.val = c.val := rfl
  refine (extractStridedSlice_apply ![0, 0] _ slices_S1048576x128_S1048576x10_0_0 (ix2 r c) (ix2 r c') fun a => ?_).trans ?_
  · match a with
    | ⟨0, _⟩ => show r.val = 0 + r.val; omega
    | ⟨1, _⟩ => show c'.val = 0 + c.val; omega
  rw [twoLayer_prefix h10 (padX x) (padW w1) (padB b1) (padW w2) (padB b2) (fun j k hj => padW_apply_low w1 j k hj)
    (fun k c hk => padW_apply_low w2 k c hk) r c', mlp_apply]
  refine congrArg₂ (· + ·) (Finset.sum_congr rfl fun k _ => congrArg₂ (· * ·) (congrArg (max · 0) (congrArg₂ (· + ·)
    (Finset.sum_congr rfl fun j _ => congrArg₂ (· * ·) ?_ ?_) ?_)) ?_) ?_
  · exact padX_apply x r _ j rfl
  · exact padW_apply w1 _ _ j k rfl rfl
  · exact padB_apply b1 _ k rfl
  · exact padW_apply w2 _ c' k c rfl hc'
  · exact padB_apply b2 c' c hc'

end Cert.ReferenceIdeal.Padded

end
-- ==== Proof.ReferenceValue.lean ====
/-
  The lane-padded reference's run, read: @main's result is the perceptron of the arguments.

  The region leaves its output array at the two layers of the padded batch (ReferenceBlocks); the one host line after
  the region cuts that array back to its first ten lanes; the operand arrays are the padded batch, weights and bias rows
  of the arguments (ReferenceOperands); and that cut of those two layers is the perceptron (ReferenceAlgebra).
-/
import proofs.«124273_g2000506800854435_pallasbulk_1138_3_alg».proof.Proof.ReferenceOperands
import proofs.«124273_g2000506800854435_pallasbulk_1138_3_alg».proof.Proof.ReferenceBlocks
import proofs.«124273_g2000506800854435_pallasbulk_1138_3_alg».proof.Proof.ReferenceAlgebra
import Idealize.ShloMosaic.Lib.StableHlo.Run

noncomputable section

namespace Cert.ReferenceIdeal.RunValue

open Idealize.ShloMosaic Idealize.ShloMosaic.TcCoe Idealize.SL.Sem Idealize.ShloMosaic.ValueIdx
open Cert.ReferenceIdeal Cert.ReferenceIdeal.Gen Cert.ReferenceIdeal.Padded Cert.Lib.TwoLayer Cert.Mlp

variable (m : (ℓ : Loc nD τ sig) → Buf (Elt Ideal) ℓ) (ρ : Dev nD → PrngReg)

/-- The perceptron of the argument arrays as launched. -/
abbrev result (c : Dev nD) : S1048576x10.Idx → EReal :=
  mlp (m ((c : Thread nD τ).loc main_arg0) : S1048576x10.Idx → EReal) (m ((c : Thread nD τ).loc main_arg1) : S10x10.Idx → EReal)
    (m ((c : Thread nD τ).loc main_arg2) : S10.Idx → EReal) (m ((c : Thread nD τ).loc main_arg3) : S10x10.Idx → EReal)
    (m ((c : Thread nD τ).loc main_arg4) : S10.Idx → EReal)

/-- The host line after the region, applied to the region's output array. -/
theorem tail_term (c : Dev nD) :
    (Pipeline.afterTail₀ cfgs (dats m) 0 (V0 m) [hostOps1] c main_v0 : S1048576x10.Idx → EReal)
      = extractStridedSlice S1048576x10 ![0, 0] (Pipeline.withArrays spec0 c (V0 m c) (fun w => (dats m 0 c).arrAt w cfg0.N) (Proc.devRef .tc (Pipeline.arrRef spec0 5))) slices_S1048576x128_S1048576x10_0_0 := by
  unfold Pipeline.afterTail₀
  show StableHlo.after hostOps1 _ (Proc.devRef .tc main_v0) = _
  after_results
  rfl

/-- @main's result after the run is the perceptron of the arguments. -/
theorem tail (c : Dev nD) :
    (Pipeline.afterTail₀ cfgs (dats m) 0 (V0 m) [hostOps1] c main_v0 : S1048576x10.Idx → EReal) = result m c := by
  rw [tail_term, Pipeline.withArrays_arr spec0 launch0.win.arr_inj c (V0 m c) _ 5, Blocks.final]
  unfold Blocks.whole
  rw [V_x, V_w1, V_b1, V_w2, V_b2]
  exact padded_value _ _ _ _ _

/-- THE RUN, read: every weakly fair execution terminates with @main's result at the perceptron of the arguments and
    the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v0 (Pipeline.mem_restRefs_of main_v0 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.RunValue

end
-- ==== Proof.lean ====
/-
  A two-layer perceptron on ten features, `relu(x · w1 + b1) · w2 + b2` over a batch of 1048576 rows, computed two ways.

  The kernel packs 64 logical rows into one 640-lane row, so that its arrays are lane-dense, and multiplies by the
  Kronecker product of the 64×64 identity with each 10×10 weight matrix (a block-diagonal 640×640 matrix), the biases
  repeated 64 times; the reference pads the ten features to 128 lanes with zeros. At the extended reals both results are
  `Σ_k max (Σ_j x(r,j) · w1(j,k) + b1(k)) 0 · w2(k,c) + b2(c)`: the extra terms of the kernel's 640-term sums and of the
  reference's 128-term sums are products with an exact zero (an off-diagonal entry of the Kronecker weight, a padded row
  of the padded weight), and a product with zero is zero on the extended reals whatever the other factor, so no
  finiteness of the inputs is used. The three frames are the generated ones; the idealization rewrote nothing.
-/
import proofs.«124273_g2000506800854435_pallasbulk_1138_3_alg».proof.Defs
import proofs.«124273_g2000506800854435_pallasbulk_1138_3_alg».proof.Proof.Gen.Kernel
import proofs.«124273_g2000506800854435_pallasbulk_1138_3_alg».proof.Proof.Gen.Kernel.Frame
import proofs.«124273_g2000506800854435_pallasbulk_1138_3_alg».proof.Proof.Gen.KernelIdeal
import proofs.«124273_g2000506800854435_pallasbulk_1138_3_alg».proof.Proof.Gen.KernelIdeal.Frame
import proofs.«124273_g2000506800854435_pallasbulk_1138_3_alg».proof.Proof.Gen.ReferenceIdeal
import proofs.«124273_g2000506800854435_pallasbulk_1138_3_alg».proof.Proof.Gen.ReferenceIdeal.Frame
import proofs.«124273_g2000506800854435_pallasbulk_1138_3_alg».proof.Proof.Gen.Pre_finite_inputs
import proofs.«124273_g2000506800854435_pallasbulk_1138_3_alg».proof.Proof.KernelValue
import proofs.«124273_g2000506800854435_pallasbulk_1138_3_alg».proof.Proof.ReferenceValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories agreeing on the arguments both programs end with the perceptron of those arguments. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.RunValue.run m' ρ')
  unfold Cert.ReferenceIdeal.RunValue.result Cert.KernelIdeal.RunValue.result
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
